-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S8000x128 : Shape := ⟨2, ![8000, 128]⟩
abbrev S1x128 : Shape := ⟨2, ![1, 128]⟩
abbrev S10000x128 : Shape := ⟨2, ![10000, 128]⟩

abbrev nBuf : Space → Nat
  | .hbm => 27
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S128x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S128, .f32⟩
  | .local _ .vmem, ⟨4, _⟩ => ⟨S8000x128, .f32⟩
  | .local _ .vmem, ⟨5, _⟩ => ⟨S8000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .f32 = 32 ∨ (Rect.block (s := S1600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S128x128, .f32⟩
  | .hbm, ⟨20, _⟩ => ⟨S1600000x128, .f32⟩
  | .hbm, ⟨21, _⟩ => ⟨S1x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Lin.lean ====
/-
  One linear layer of the message-passing network, as a function of whole arrays.

  For a matrix `a` of `R` rows and 128 columns, a 128 × 128 matrix `w` and a vector `b` of 128 entries, the layer's
  result at row `r` and column `q` is

      (∑ k < 128, a[r, k] · w[k, q]) + b[q]

  on the extended reals. The network applies it twice: over the 1,600,000 edges (`linE`: the gathered source rows
  against the transposed message weights, plus the message bias) and over the 100,000 nodes (`linN`: the rows
  summed per target node against the transposed update weights, plus the update bias).

  The reference spells a layer as a `dot_general` contracting axis 1 of `a` with axis 0 of `w`, plus the bias
  broadcast along the rows. At the ideal values that contraction is exactly the sum above (it starts from zero, and
  `0 + s = s` at the infinities too), and the broadcast bias read at (r, q) is `b[q]`. So the reference's result is
  the node layer of the scatter-add of the edge layer (`ref_eq`); nothing between the two layers is opened.
-/
import proofs.«106380_j12120397710063_1_alg».proof.Proof.Gen.ReferenceIdeal.Read

noncomputable section

namespace Cert.ReferenceIdeal.Lin

open Cert.ReferenceIdeal Cert.ReferenceIdeal.Gen Cert.ReferenceIdeal.Read Idealize.ShloMosaic

/-- The layer over the edges: entry (r, q) is the sum over `k` of `a[r, k] · w[k, q]`, plus `b[q]`. -/
def linE (a : (⟨S1600000x128, .f32⟩ : BufTy).Contents (Elt Ideal)) (w : (⟨S128x128, .f32⟩ : BufTy).Contents (Elt Ideal))
    (b : (⟨S128, .f32⟩ : BufTy).Contents (Elt Ideal)) : (⟨S1600000x128, .f32⟩ : BufTy).Contents (Elt Ideal) :=
  fun i => (∑ k : Fin 128, a (lidx_main_v12 i k) * w (ridx_main_v12 i k)) + b (idx_main_v13 (idx_main_v14 i))

/-- The layer over the nodes: entry (r, q) is the sum over `k` of `a[r, k] · w[k, q]`, plus `b[q]`. -/
def linN (a : (⟨S100000x128, .f32⟩ : BufTy).Contents (Elt Ideal)) (w : (⟨S128x128, .f32⟩ : BufTy).Contents (Elt Ideal))
    (b : (⟨S128, .f32⟩ : BufTy).Contents (Elt Ideal)) : (⟨S100000x128, .f32⟩ : BufTy).Contents (Elt Ideal) :=
  fun i => (∑ k : Fin 128, a (lidx_main_v20 i k) * w (ridx_main_v20 i k)) + b (idx_main_v21 (idx_main_v22 i))

/-- The reference's messages — its contraction of the gathered rows with the transposed weights, plus the bias laid
    along every row — are the edge layer of those operands. -/
theorem messages_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v15 (F := Ideal) x0 x1 x2 x3 = linE (val_main_v10 (F := Ideal) x0 x1) (val_main_v11 (F := Ideal) x2) x3 := by
  funext i
  rw [val_main_v15_apply, val_main_v12_apply, val_main_v14_apply, val_main_v13_apply]
  rfl

/-- The reference's result is the node layer of the per-target sums of the edge layer. -/
theorem ref_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v23 (F := Ideal) x0 x1 x2 x3 x4 x5
      = linN (Host.scatterAdd (F := Ideal) (φ := .f32) scatter_S100000x128_S1600000x1_S1600000x128_1_0_0_1 (val_main_v16 (F := Ideal)) (val_main_v17 (F := Ideal) x1)
          (linE (val_main_v10 (F := Ideal) x0 x1) (val_main_v11 (F := Ideal) x2) x3)) (val_main_v19 (F := Ideal) x4) x5 := by
  funext i
  rw [val_main_v23_apply, val_main_v20_apply, val_main_v22_apply, val_main_v21_apply]
  unfold val_main_v18
  rw [messages_eq]
  rfl

end Cert.ReferenceIdeal.Lin

end
-- ==== Proof.Msg.lean ====
/-
  The message layer (the first pallas_call), read as a whole array.

  The call walks the 1,600,000 gathered rows in 200 blocks of 8,000. At block `t` the body loads rows
  `8000·t … 8000·t + 7999` of the gathered array, the whole 128 × 128 transposed weight matrix and the whole bias,
  multiplies (rounding both factors to bf16 first, which at the ideal values changes nothing), adds the bias laid along
  every row, and stores the block back over the same rows of the result.

  So entry (p, q) of the block is `(∑ k < 128, x[p, k] · w[k, q]) + b[q]` (`pay_apply`: a matrix product
  accumulated into zero is the plain sum, since `0 + s = s` on the extended reals), which is entry
  (8000·t + p, q) of the edge layer of the whole arrays (`flushed_eq`). The 200 blocks tile the result's rows
  (`cover`: row `r` lies in block `r / 8000`), so the result array ends as the edge layer of what the call found in
  its three input arrays (`arr_eq`). Everything is stated for arbitrary contents `V` at the call's entry.
-/
import proofs.«106380_j12120397710063_1_alg».proof.Proof.Gen.KernelIdeal.Frame
import proofs.«106380_j12120397710063_1_alg».proof.Proof.Lin
import Idealize.ShloMosaic.Lib.Pipeline.Value
import Idealize.ShloMosaic.Lib.ValueIdx
import Idealize.ShloMosaic.PureOps.Ideal.Laws

set_option maxRecDepth 16384

noncomputable section

namespace Cert.KernelIdeal.Msg

open Cert.KernelIdeal Cert.KernelIdeal.Gen Idealize.ShloMosaic Idealize.ShloMosaic.TcCoe Idealize.SL.Sem
open Idealize.ShloMosaic.Pipeline (Dat)
open Cert.ReferenceIdeal.Lin (linE)
open Cert.ReferenceIdeal.Read (lidx_main_v12 ridx_main_v12 idx_main_v13 idx_main_v14)

/-! ## The body's arithmetic at an index -/

/-- Row `j 0`, column `k` of the block of rows. -/
abbrev rowAt (j : S8000x128.Idx) (k : Fin 128) : S8000x128.Idx := fun a => match a with
  | ⟨0, _⟩ => ⟨(j 0).val, (j 0).isLt⟩
  | ⟨1, _⟩ => ⟨k.val, k.isLt⟩
/-- Row `k`, column `j 1` of the weights. -/
abbrev colAt (j : S8000x128.Idx) (k : Fin 128) : S128x128.Idx := fun a => match a with
  | ⟨0, _⟩ => ⟨k.val, k.isLt⟩
  | ⟨1, _⟩ => ⟨(j 1).val, (j 1).isLt⟩
/-- Entry `j 1` of the bias. -/
abbrev biasAt (j : S8000x128.Idx) : S128.Idx := fun a => match a with
  | ⟨0, _⟩ => ⟨(j 1).val, (j 1).isLt⟩

theorem lhs_0 (j : S8000x128.Idx) (q : dot_S8000x128_S128x128_S8000x128_1_0_0_1_n_n.contr.Idx) : (dot_S8000x128_S128x128_S8000x128_1_0_0_1_n_n.lhsIdx j q 0).val = (j 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_1 (j : S8000x128.Idx) (q : dot_S8000x128_S128x128_S8000x128_1_0_0_1_n_n.contr.Idx) : (dot_S8000x128_S128x128_S8000x128_1_0_0_1_n_n.lhsIdx j q 1).val = (q ⟨0, by decide⟩).val :=
  dot_S8000x128_S128x128_S8000x128_1_0_0_1_n_n.lhsIdx_val_of_single rfl j q
theorem rhs_0 (j : S8000x128.Idx) (q : dot_S8000x128_S128x128_S8000x128_1_0_0_1_n_n.contr.Idx) : (dot_S8000x128_S128x128_S8000x128_1_0_0_1_n_n.rhsIdx j q 0).val = (q ⟨0, by decide⟩).val :=
  dot_S8000x128_S128x128_S8000x128_1_0_0_1_n_n.rhsIdx_val_of_single rfl j q
theorem rhs_1 (j : S8000x128.Idx) (q : dot_S8000x128_S128x128_S8000x128_1_0_0_1_n_n.contr.Idx) : (dot_S8000x128_S128x128_S8000x128_1_0_0_1_n_n.rhsIdx j q 1).val = (j 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The bias laid along every row, read at an index, is the bias at the column. -/
theorem bias_apply (x2 : Vec Ideal S128 .f32) (j : S8000x128.Idx) :
    broadcastTo S8000x128 (shapeCast S1x128 x2 shapeCasts_S128_S1x128) broadcasts_S1x128_S8000x128 j = x2 (biasAt j) := by
  have e1 := broadcastTo_apply (shapeCast S1x128 x2 shapeCasts_S128_S1x128) broadcasts_S1x128_S8000x128 j
    (ValueIdx.ix2 (0 : Fin 1) (⟨(j 1).val, (j 1).isLt⟩ : Fin 128)) (by
      intro a
      match a with
      | ⟨0, _⟩ => rfl
      | ⟨1, _⟩ => show (j 1).val = if (128 : Nat) = 1 then 0 else (j 1).val; rw [if_neg (by decide)])
  have e2 := shapeCast_apply x2 shapeCasts_S128_S1x128 (ValueIdx.ix2 (0 : Fin 1) (⟨(j 1).val, (j 1).isLt⟩ : Fin 128)) (biasAt j) (by
    rw [Shape.rowMajor_val_two, Shape.rowMajor_val_one]; show (j 1).val = 0 * 128 + (j 1).val; omega)
  exact e1.trans e2

/-- The body's stored value at (p, q): the sum over `k` of `x0[p, k] · x1[k, q]`, plus `x2[q]`. -/
theorem pay_apply (x0 : Vec Ideal S8000x128 .f32) (x1 : Vec Ideal S128x128 .f32) (x2 : Vec Ideal S128 .f32) (j : S8000x128.Idx) :
    k0_pay1 (F := Ideal) x0 x1 x2 j = (∑ k : Fin 128, x0 (rowAt j k) * x1 (colAt j k)) + x2 (biasAt j) := by
  unfold k0_pay1
  show FloatOps.matmul (F := Ideal) dot_S8000x128_S128x128_S8000x128_1_0_0_1_n_n none (truncf .bf16 (shapeCast S8000x128 x0 shapeCasts_S8000x128_S8000x128) bitsLt_bf16_f32)
        (truncf .bf16 (shapeCast S128x128 x1 shapeCasts_S128x128_S128x128) bitsLt_bf16_f32) (constant (F := Ideal) S8000x128 .f32 0x00000000#32) j
      + broadcastTo S8000x128 (shapeCast S1x128 x2 shapeCasts_S128_S1x128) broadcasts_S1x128_S8000x128 j = _
  rw [Ideal.matmul_constant_zero_apply, ← Equiv.sum_comp (ValueIdx.contrEquiv1 dot_S8000x128_S128x128_S8000x128_1_0_0_1_n_n 128 rfl rfl).symm, shapeCast_self, shapeCast_self, bias_apply]
  refine congrArg (· + x2 (biasAt j)) (Finset.sum_congr rfl fun k _ => ?_)
  have hk := ValueIdx.contrEquiv1_symm_val dot_S8000x128_S128x128_S8000x128_1_0_0_1_n_n 128 rfl rfl k
  have el : dot_S8000x128_S128x128_S8000x128_1_0_0_1_n_n.lhsIdx j ((ValueIdx.contrEquiv1 dot_S8000x128_S128x128_S8000x128_1_0_0_1_n_n 128 rfl rfl).symm k) = rowAt j k := funext fun a => Fin.ext (by
    match a with
    | ⟨0, _⟩ => exact lhs_0 _ _
    | ⟨1, _⟩ => exact (lhs_1 _ _).trans hk)
  have er : dot_S8000x128_S128x128_S8000x128_1_0_0_1_n_n.rhsIdx j ((ValueIdx.contrEquiv1 dot_S8000x128_S128x128_S8000x128_1_0_0_1_n_n 128 rfl rfl).symm k) = colAt j k := funext fun a => Fin.ext (by
    match a with
    | ⟨0, _⟩ => exact (rhs_0 _ _).trans hk
    | ⟨1, _⟩ => exact rhs_1 _ _)
  simp only [ValueIdx.truncf_apply]
  rw [el, er]

/-! ## The blocks as rows of the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the rows' window and the result's window sit at block `t` of the rows, the
    weights' and the bias's at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The block of rows at point `t`: block row `y 0` is row `8000·t + y 0` of the array. -/
theorem rows_apply (c : Dev nD) (t : Fin cfg0.N) (y : S8000x128.Idx) (i : S1600000x128.Idx)
    (h0 : (i 0).val = 8000 * t.val + (y 0).val) (h1 : (i 1).val = (y 1).val) :
    (iblk0 V c 0 t : Vec Ideal S8000x128 .f32) y = (V c main_v10 : S1600000x128.Idx → Elt Ideal .f32) i := by
  obtain ⟨e0, e1, -⟩ := idx_facts t
  unfold iblk0
  rw [View.read_apply]
  show V c main_v10 _ = V c main_v10 _
  congr 1
  funext a
  apply Fin.ext
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- The weights' block at every point is the whole matrix. -/
theorem weights_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_v11 : S128x128.Idx → Elt Ideal .f32) i := by
  obtain ⟨-, -, e0, e1, -⟩ := idx_facts t
  unfold iblk0
  rw [View.read_apply]
  show V c main_v11 _ = V c main_v11 _
  congr 1
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- The bias's block at every point is the whole vector. -/
theorem biasblk_apply (c : Dev nD) (t : Fin cfg0.N) (y : S128.Idx) (i : S128.Idx) (h0 : (i 0).val = (y 0).val) :
    (iblk0 V c 2 t : Vec Ideal S128 .f32) y = (V c main_arg3 : S128.Idx → Elt Ideal .f32) i := by
  obtain ⟨-, -, -, -, e0, -⟩ := idx_facts t
  unfold iblk0
  rw [View.read_apply]
  show V c main_arg3 _ = V c main_arg3 _
  congr 1
  funext a
  apply Fin.ext
  match a with
  | ⟨0, _⟩ => show win0_2.index t (0 : Fin 1) * 128 + 1 * (y 0).val = (i 0).val; rw [e0, h0]; omega

/-! ## What a point writes back, the cover, and the array -/

/-- Entry `j` of what the body leaves at point `t` is the edge layer at row `8000·t + j 0`, column `j 1`. -/
theorem block_eq (c : Dev nD) (t : Fin cfg0.N) (j : S8000x128.Idx) :
    k0_pay1 (F := Ideal) (iblk0 V c 0 t) (iblk0 V c 1 t) (iblk0 V c 2 t) j
      = linE (V c main_v10) (V c main_v11) (V c main_arg3) (((cfg0.win 3).blk t).view.emb j) := by
  obtain ⟨-, -, -, -, -, e5, e6⟩ := idx_facts t
  have hj0 : ((((cfg0.win 3).blk t).view.emb j) 0).val = 8000 * t.val + (j 0).val := by
    show win0_3.index t (0 : Fin 2) * 8000 + 1 * (j 0).val = _; rw [e5]; omega
  have hj1 : ((((cfg0.win 3).blk t).view.emb j) 1).val = (j 1).val := by
    show win0_3.index t (1 : Fin 2) * 128 + 1 * (j 1).val = _; rw [e6]; omega
  refine (pay_apply _ _ _ j).trans ?_
  unfold linE
  refine congrArg₂ (· + ·) (Finset.sum_congr rfl fun k _ => congrArg₂ (· * ·) ?_ ?_) ?_
  · exact rows_apply V c t (rowAt j k) (lidx_main_v12 (((cfg0.win 3).blk t).view.emb j) k) hj0 rfl
  · exact weights_apply V c t (colAt j k) (ridx_main_v12 (((cfg0.win 3).blk t).view.emb j) k) rfl hj1
  · exact biasblk_apply V c t (biasAt j) (idx_main_v13 (idx_main_v14 (((cfg0.win 3).blk t).view.emb j))) hj1

/-- WHAT POINT `t` WRITES BACK is block `t` of the edge layer of the arrays the call found. -/
theorem flushed_eq (c : Dev nD) (t : Fin cfg0.N) :
    (dat0 V c).flushed 3 t = ((cfg0.win 3).blk t).view.read (Elt Ideal) (linE (V c main_v10) (V c main_v11) (V c main_arg3)) := by
  show (cfg0.win 3).cut (grid0.coords t) ((dat0 V c).after 3 t) = _
  rw [after0_3]
  unfold out0_3
  rw [View.canon_unit_zero hz2]
  simp only [View.ld_unit_zero (S := S8000x128) hz2, View.ld_unit_zero (S := S128x128) hz2, View.ld_unit_zero (S := S128) hz1]
  funext j
  exact block_eq V c t j

/-- An index of the result is in point `t`'s block iff each coordinate is in the block's range on its axis. -/
theorem mem_blk (t : Fin cfg0.N) (i : S1600000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v12).slice (win0_3.rect t)).set ↔ _
  rw [View.set_slice_whole, Rect.mem_set_unit]
  exact Iff.rfl

/-- Row `r` of the result lies in the block of point `r / 8000`, which is written back. -/
theorem cover (i : S1600000x128.Idx) : ∃ t : Fin cfg0.N, (cfg0.win 3).flush t = true ∧ i ∈ ((cfg0.win 3).blk t).view.set := by
  have hN : grid0.N = 200 := N_0
  have hi0 : (i 0).val < 1600000 := (i 0).isLt
  have hi1 : (i 1).val < 128 := (i 1).isLt
  have hlt : (i 0).val / 8000 < cfg0.N := by show (i 0).val / 8000 < grid0.N; rw [hN]; omega
  obtain ⟨-, -, -, -, -, e5, e6⟩ := idx_facts ⟨(i 0).val / 8000, hlt⟩
  refine ⟨⟨(i 0).val / 8000, hlt⟩, flush0_3 _, ?_⟩
  rw [mem_blk]
  intro a
  match a with
  | ⟨0, _⟩ =>
    show win0_3.index ⟨(i 0).val / 8000, hlt⟩ (0 : Fin 2) * 8000 ≤ (i 0).val ∧ (i 0).val < win0_3.index ⟨(i 0).val / 8000, hlt⟩ (0 : Fin 2) * 8000 + 8000
    rw [e5]; show (i 0).val / 8000 * 8000 ≤ (i 0).val ∧ (i 0).val < (i 0).val / 8000 * 8000 + 8000; omega
  | ⟨1, _⟩ =>
    show win0_3.index ⟨(i 0).val / 8000, hlt⟩ (1 : Fin 2) * 128 ≤ (i 1).val ∧ (i 1).val < win0_3.index ⟨(i 0).val / 8000, hlt⟩ (1 : Fin 2) * 128 + 128
    rw [e6]; omega

/-- THE RESULT ARRAY after the call: the edge layer of the three arrays the call found. -/
theorem arr_eq (c : Dev nD) : (dat0 V c).arrAt 3 cfg0.N = linE (V c main_v10) (V c main_v11) (V c main_arg3) :=
  (dat0 V c).arrAt_eq_of_cover 3 _ (fun t _ => flushed_eq V c t) cover

end Cert.KernelIdeal.Msg

end
-- ==== Proof.Upd.lean ====
/-
  The update layer (the second pallas_call), read as a whole array.

  The call walks the 100,000 node rows — the messages summed per target node — in 10 blocks of 10,000. At block `t`
  the body loads rows `10000·t … 10000·t + 9999` of that array, the whole 128 × 128 transposed update weights and the
  whole update bias, multiplies (rounding both factors to bf16 first, which at the ideal values changes nothing), adds
  the bias laid along every row, and stores the block back over the same rows of the result.

  So entry (p, q) of the block is `(∑ k < 128, x[p, k] · w[k, q]) + b[q]` (`pay_apply`: a matrix product
  accumulated into zero is the plain sum, since `0 + s = s` on the extended reals), which is entry
  (10000·t + p, q) of the node layer of the whole arrays (`flushed_eq`). The 10 blocks tile the result's rows
  (`cover`: row `r` lies in block `r / 10000`), so the result array ends as the node layer of what the call found in
  its three input arrays (`arr_eq`). Everything is stated for arbitrary contents `V` at the call's entry.
-/
import proofs.«106380_j12120397710063_1_alg».proof.Proof.Gen.KernelIdeal.Frame
import proofs.«106380_j12120397710063_1_alg».proof.Proof.Lin
import Idealize.ShloMosaic.Lib.Pipeline.Value
import Idealize.ShloMosaic.Lib.ValueIdx
import Idealize.ShloMosaic.PureOps.Ideal.Laws

set_option maxRecDepth 16384

noncomputable section

namespace Cert.KernelIdeal.Upd

open Cert.KernelIdeal Cert.KernelIdeal.Gen Idealize.ShloMosaic Idealize.ShloMosaic.TcCoe Idealize.SL.Sem
open Idealize.ShloMosaic.Pipeline (Dat)
open Cert.ReferenceIdeal.Lin (linN)
open Cert.ReferenceIdeal.Read (lidx_main_v20 ridx_main_v20 idx_main_v21 idx_main_v22)

/-! ## The body's arithmetic at an index -/

/-- Row `j 0`, column `k` of the block of rows. -/
abbrev rowAt (j : S10000x128.Idx) (k : Fin 128) : S10000x128.Idx := fun a => match a with
  | ⟨0, _⟩ => ⟨(j 0).val, (j 0).isLt⟩
  | ⟨1, _⟩ => ⟨k.val, k.isLt⟩
/-- Row `k`, column `j 1` of the weights. -/
abbrev colAt (j : S10000x128.Idx) (k : Fin 128) : S128x128.Idx := fun a => match a with
  | ⟨0, _⟩ => ⟨k.val, k.isLt⟩
  | ⟨1, _⟩ => ⟨(j 1).val, (j 1).isLt⟩
/-- Entry `j 1` of the bias. -/
abbrev biasAt (j : S10000x128.Idx) : S128.Idx := fun a => match a with
  | ⟨0, _⟩ => ⟨(j 1).val, (j 1).isLt⟩

theorem lhs_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The bias laid along every row, read at an index, is the bias at the column. -/
theorem bias_apply (x2 : Vec Ideal S128 .f32) (j : S10000x128.Idx) :
    broadcastTo S10000x128 (shapeCast S1x128 x2 shapeCasts_S128_S1x128) broadcasts_S1x128_S10000x128 j = x2 (biasAt j) := by
  have e1 := broadcastTo_apply (shapeCast S1x128 x2 shapeCasts_S128_S1x128) broadcasts_S1x128_S10000x128 j
    (ValueIdx.ix2 (0 : Fin 1) (⟨(j 1).val, (j 1).isLt⟩ : Fin 128)) (by
      intro a
      match a with
      | ⟨0, _⟩ => rfl
      | ⟨1, _⟩ => show (j 1).val = if (128 : Nat) = 1 then 0 else (j 1).val; rw [if_neg (by decide)])
  have e2 := shapeCast_apply x2 shapeCasts_S128_S1x128 (ValueIdx.ix2 (0 : Fin 1) (⟨(j 1).val, (j 1).isLt⟩ : Fin 128)) (biasAt j) (by
    rw [Shape.rowMajor_val_two, Shape.rowMajor_val_one]; show (j 1).val = 0 * 128 + (j 1).val; omega)
  exact e1.trans e2

/-- The body's stored value at (p, q): the sum over `k` of `x0[p, k] · x1[k, q]`, plus `x2[q]`. -/
theorem pay_apply (x0 : Vec Ideal S10000x128 .f32) (x1 : Vec Ideal S128x128 .f32) (x2 : Vec Ideal S128 .f32) (j : S10000x128.Idx) :
    k1_pay1 (F := Ideal) x0 x1 x2 j = (∑ k : Fin 128, x0 (rowAt j k) * x1 (colAt j k)) + x2 (biasAt j) := by
  unfold k1_pay1
  show FloatOps.matmul (F := Ideal) dot_S10000x128_S128x128_S10000x128_1_0_0_1_n_n none (truncf .bf16 (shapeCast S10000x128 x0 shapeCasts_S10000x128_S10000x128) bitsLt_bf16_f32)
        (truncf .bf16 (shapeCast S128x128 x1 shapeCasts_S128x128_S128x128) bitsLt_bf16_f32) (constant (F := Ideal) S10000x128 .f32 0x00000000#32) j
      + broadcastTo S10000x128 (shapeCast S1x128 x2 shapeCasts_S128_S1x128) broadcasts_S1x128_S10000x128 j = _
  rw [Ideal.matmul_constant_zero_apply, ← Equiv.sum_comp (ValueIdx.contrEquiv1 dot_S10000x128_S128x128_S10000x128_1_0_0_1_n_n 128 rfl rfl).symm, shapeCast_self, shapeCast_self, bias_apply]
  refine congrArg (· + x2 (biasAt j)) (Finset.sum_congr rfl fun k _ => ?_)
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowAt j k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = colAt j k := funext fun a => Fin.ext (by
    match a with
    | ⟨0, _⟩ => exact (rhs_0 _ _).trans hk
    | ⟨1, _⟩ => exact rhs_1 _ _)
  simp only [ValueIdx.truncf_apply]
  rw [el, er]

/-! ## The blocks as rows of the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the rows' window and the result's window sit at block `t` of the rows, the
    weights' and the bias's at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The block of rows at point `t`: block row `y 0` is row `10000·t + y 0` of the array. -/
theorem rows_apply (c : Dev nD) (t : Fin cfg1.N) (y : S10000x128.Idx) (i : S100000x128.Idx)
    (h0 : (i 0).val = 10000 * t.val + (y 0).val) (h1 : (i 1).val = (y 1).val) :
    (iblk1 V c 0 t : Vec Ideal S10000x128 .f32) y = (V c main_v15 : S100000x128.Idx → Elt Ideal .f32) i := by
  obtain ⟨e0, e1, -⟩ := idx_facts t
  unfold iblk1
  rw [View.read_apply]
  show V c main_v15 _ = V c main_v15 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weights' block at every point is the whole matrix. -/
theorem weights_apply (c : Dev nD) (t : Fin cfg1.N) (y : S128x128.Idx) (i : S128x128.Idx)
    (h0 : (i 0).val = (y 0).val) (h1 : (i 1).val = (y 1).val) :
    (iblk1 V c 1 t : Vec Ideal S128x128 .f32) y = (V c main_v16 : S128x128.Idx → Elt Ideal .f32) i := by
  obtain ⟨-, -, e0, e1, -⟩ := idx_facts t
  unfold iblk1
  rw [View.read_apply]
  show V c main_v16 _ = V c main_v16 _
  congr 1
  funext a
  apply Fin.ext
  match a with
  | ⟨0, _⟩ => show win1_1.index t (0 : Fin 2) * 128 + 1 * (y 0).val = (i 0).val; rw [e0, h0]; omega
  | ⟨1, _⟩ => show win1_1.index t (1 : Fin 2) * 128 + 1 * (y 1).val = (i 1).val; rw [e1, h1]; omega

/-- The bias's block at every point is the whole vector. -/
theorem biasblk_apply (c : Dev nD) (t : Fin cfg1.N) (y : S128.Idx) (i : S128.Idx) (h0 : (i 0).val = (y 0).val) :
    (iblk1 V c 2 t : Vec Ideal S128 .f32) y = (V c main_arg5 : S128.Idx → Elt Ideal .f32) i := by
  obtain ⟨-, -, -, -, e0, -⟩ := idx_facts t
  unfold iblk1
  rw [View.read_apply]
  show V c main_arg5 _ = V c main_arg5 _
  congr 1
  funext a
  apply Fin.ext
  match a with
  | ⟨0, _⟩ => show win1_2.index t (0 : Fin 1) * 128 + 1 * (y 0).val = (i 0).val; rw [e0, h0]; omega

/-! ## What a point writes back, the cover, and the array -/

/-- Entry `j` of what the body leaves at point `t` is the node layer at row `10000·t + j 0`, column `j 1`. -/
theorem block_eq (c : Dev nD) (t : Fin cfg1.N) (j : S10000x128.Idx) :
    k1_pay1 (F := Ideal) (iblk1 V c 0 t) (iblk1 V c 1 t) (iblk1 V c 2 t) j
      = linN (V c main_v15) (V c main_v16) (V c main_arg5) (((cfg1.win 3).blk t).view.emb j) := by
  obtain ⟨-, -, -, -, -, e5, e6⟩ := idx_facts t
  have hj0 : ((((cfg1.win 3).blk t).view.emb j) 0).val = 10000 * t.val + (j 0).val := by
    show win1_3.index t (0 : Fin 2) * 10000 + 1 * (j 0).val = _; rw [e5]; omega
  have hj1 : ((((cfg1.win 3).blk t).view.emb j) 1).val = (j 1).val := by
    show win1_3.index t (1 : Fin 2) * 128 + 1 * (j 1).val = _; rw [e6]; omega
  refine (pay_apply _ _ _ j).trans ?_
  unfold linN
  refine congrArg₂ (· + ·) (Finset.sum_congr rfl fun k _ => congrArg₂ (· * ·) ?_ ?_) ?_
  · exact rows_apply V c t (rowAt j k) (lidx_main_v20 (((cfg1.win 3).blk t).view.emb j) k) hj0 rfl
  · exact weights_apply V c t (colAt j k) (ridx_main_v20 (((cfg1.win 3).blk t).view.emb j) k) rfl hj1
  · exact biasblk_apply V c t (biasAt j) (idx_main_v21 (idx_main_v22 (((cfg1.win 3).blk t).view.emb j))) hj1

/-- WHAT POINT `t` WRITES BACK is block `t` of the node layer of the arrays the call found. -/
theorem flushed_eq (c : Dev nD) (t : Fin cfg1.N) :
    (dat1 V c).flushed 3 t = ((cfg1.win 3).blk t).view.read (Elt Ideal) (linN (V c main_v15) (V c main_v16) (V c main_arg5)) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S128x128) hz2, View.ld_unit_zero (S := S128) hz1]
  funext j
  exact block_eq V c t j

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v17).slice (win1_3.rect t)).set ↔ _
  rw [View.set_slice_whole, Rect.mem_set_unit]
  exact Iff.rfl

/-- Row `r` of the result lies in the block of point `r / 10000`, which is written back. -/
theorem cover (i : S100000x128.Idx) : ∃ t : Fin cfg1.N, (cfg1.win 3).flush t = true ∧ i ∈ ((cfg1.win 3).blk t).view.set := by
  have hN : grid1.N = 10 := N_1
  have hi0 : (i 0).val < 100000 := (i 0).isLt
  have hi1 : (i 1).val < 128 := (i 1).isLt
  have hlt : (i 0).val / 10000 < cfg1.N := by show (i 0).val / 10000 < grid1.N; rw [hN]; omega
  obtain ⟨-, -, -, -, -, e5, e6⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val ∧ (i 1).val < win1_3.index ⟨(i 0).val / 10000, hlt⟩ (1 : Fin 2) * 128 + 128
    rw [e6]; omega

/-- THE RESULT ARRAY after the call: the node layer of the three arrays the call found. -/
theorem arr_eq (c : Dev nD) : (dat1 V c).arrAt 3 cfg1.N = linN (V c main_v15) (V c main_v16) (V c main_arg5) :=
  (dat1 V c).arrAt_eq_of_cover 3 _ (fun t _ => flushed_eq V c t) cover

end Cert.KernelIdeal.Upd

end
-- ==== Proof.KernelRun.lean ====
/-
  The kernel's run with its result named, and that result as a function of the arguments.

  @main is four stretches: host operations, the message layer's call, host operations, the update layer's call. The
  contents of the TensorCore's buffers at the four boundaries form a fold from the launch memory: a host stretch
  applies its operations, a call leaves each of its arrays at what its write-backs fold to and every other buffer as
  it was. `run_mem` is the run with the result buffer read at the last boundary of that fold (it follows the frame's
  launch over the same segments, with one more buffer read out of the final state).

  Reading the fold backwards at the ideal values: the result is the update call's output array, the node layer of
  its three inputs (`Upd.arr_eq`); the first of those is the scatter-add, into zeros and by target node, of the
  message call's output array, which is the edge layer of ITS three inputs (`Msg.arr_eq`): the rows of `x` gathered by
  source node (a negative index counted from the end), the transposed message weights and the message bias; the other
  two are the transposed update weights and the update bias. That composite is `result`.
-/
import proofs.«106380_j12120397710063_1_alg».proof.Proof.Gen.KernelIdeal.Frame
import proofs.«106380_j12120397710063_1_alg».proof.Proof.Msg
import proofs.«106380_j12120397710063_1_alg».proof.Proof.Upd
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.ReferenceIdeal.Lin (linE linN)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_mem : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

/-! ## The last boundary's contents of the result buffer, at the ideal values -/

section Value
variable (m : (ℓ : Loc nD τ sig) → Buf (Elt Ideal) ℓ) (ρ : Dev nD → PrngReg)

/-- The rows of `x` gathered by each edge's source node; a negative source index is counted from the end. -/
abbrev gathered (c : Dev nD) : (⟨S1600000x128, .f32⟩ : BufTy).Contents (Elt Ideal) :=
  Host.gather gather_S100000x128_S1600000x1_S1600000x128_1_0_n_n_0_1_1128 (m ((c : Thread nD τ).loc main_arg0))
    (broadcastInDim S1600000x1 ![0] bcast_S1600000_S1600000x1_0
      (select (cmpi .slt (shapeCast _ (extractStridedSlice S1x1600000 ![0, 0] (m ((c : Thread nD τ).loc main_arg1)) slices_S2x1600000_S1x1600000_0_0) shapeCasts_S1x1600000_S1600000) (broadcastInDim S1600000 ![] bcast_S_S1600000 (constantI S_ 32 0#32)))
        (addi (shapeCast _ (extractStridedSlice S1x1600000 ![0, 0] (m ((c : Thread nD τ).loc main_arg1)) slices_S2x1600000_S1x1600000_0_0) shapeCasts_S1x1600000_S1600000) (broadcastInDim S1600000 ![] bcast_S_S1600000 (constantI S_ 32 100000#32)))
        (shapeCast _ (extractStridedSlice S1x1600000 ![0, 0] (m ((c : Thread nD τ).loc main_arg1)) slices_S2x1600000_S1x1600000_0_0) shapeCasts_S1x1600000_S1600000)))

/-- Each edge's target node, as a column of indices. -/
abbrev targets (c : Dev nD) : (⟨S1600000x1, .i32⟩ : BufTy).Contents (Elt Ideal) :=
  broadcastInDim S1600000x1 ![0] bcast_S1600000_S1600000x1_0 (shapeCast _ (extractStridedSlice S1x1600000 ![1, 0] (m ((c : Thread nD τ).loc main_arg1)) slices_S2x1600000_S1x1600000_1_0) shapeCasts_S1x1600000_S1600000)

/-- The messages: the edge layer of the gathered rows. -/
abbrev messages (c : Dev nD) : (⟨S1600000x128, .f32⟩ : BufTy).Contents (Elt Ideal) :=
  linE (gathered m c) (transpose S128x128 [1, 0] (m ((c : Thread nD τ).loc main_arg2)) transposes_S128x128_S128x128_1_0) (m ((c : Thread nD τ).loc main_arg3))

/-- THE RESULT: the node layer of the messages summed per target node. -/
def result (c : Dev nD) : (⟨S100000x128, .f32⟩ : BufTy).Contents (Elt Ideal) :=
  linN (Host.scatterAdd (F := Ideal) (φ := .f32) scatter_S100000x128_S1600000x1_S1600000x128_1_0_0_1 (broadcastInDim S100000x128 ![] bcast_S_S100000x128 (constant (F := Ideal) S_ .f32 0x00000000#32)) (targets m c) (messages m c))
    (transpose S128x128 [1, 0] (m ((c : Thread nD τ).loc main_arg4)) transposes_S128x128_S128x128_1_0) (m ((c : Thread nD τ).loc main_arg5))

/-! ### What the message layer's call finds -/

theorem V1_rows (c : Dev nD) : V1 m ρ c main_v10 = gathered m c := by
  show StableHlo.after hostOps0 (W0 m ρ c) (Proc.devRef .tc main_v10) = _
  dsimp only [hostOps0]
  after_results <;> rfl

theorem V1_weights (c : Dev nD) : V1 m ρ c main_v11 = (transpose S128x128 [1, 0] (m ((c : Thread nD τ).loc main_arg2)) transposes_S128x128_S128x128_1_0) := by
  show StableHlo.after hostOps0 (W0 m ρ c) (Proc.devRef .tc main_v11) = _
  dsimp only [hostOps0]
  after_results <;> rfl

theorem V1_bias (c : Dev nD) : V1 m ρ c main_arg3 = m ((c : Thread nD τ).loc main_arg3) := by
  show StableHlo.after hostOps0 (W0 m ρ c) (Proc.devRef .tc main_arg3) = _
  dsimp only [hostOps0]
  after_results <;> rfl

/-- The message layer's call leaves the messages in its result array. -/
theorem W2_messages (c : Dev nD) : W2 m ρ c (Proc.devRef .tc main_v12) = messages m c := by
  refine (show W2 m ρ c (Proc.devRef .tc main_v12) = (dat0 (V1 m ρ) c).arrAt 3 cfg0.N from W2_arr m ρ c 3).trans ?_
  rw [Cert.KernelIdeal.Msg.arr_eq (V1 m ρ) c, V1_rows, V1_weights, V1_bias]

/-! ### What the first stretch left in the buffers the second stretch reads -/

theorem W1_tgt (c : Dev nD) : W1 m ρ c (Proc.devRef .tc main_v3) = (shapeCast _ (extractStridedSlice S1x1600000 ![1, 0] (m ((c : Thread nD τ).loc main_arg1)) slices_S2x1600000_S1x1600000_1_0) shapeCasts_S1x1600000_S1600000) := by
  show StableHlo.after hostOps0 (W0 m ρ c) (Proc.devRef .tc main_v3) = _
  dsimp only [hostOps0]
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results <;> rfl

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results <;> rfl

/-! ### What the update layer's call finds -/

theorem V3_sums (c : Dev nD) : V3 m ρ c main_v15
    = Host.scatterAdd (F := Ideal) (φ := .f32) scatter_S100000x128_S1600000x1_S1600000x128_1_0_0_1 (broadcastInDim S100000x128 ![] bcast_S_S100000x128 (constant (F := Ideal) S_ .f32 0x00000000#32)) (targets m c) (messages m c) := by
  have h : V3 m ρ c main_v15 = Host.scatterAdd (F := Ideal) (φ := .f32) scatter_S100000x128_S1600000x1_S1600000x128_1_0_0_1 (broadcastInDim S100000x128 ![] bcast_S_S100000x128 (constant (F := Ideal) S_ .f32 0x00000000#32))
      (broadcastInDim S1600000x1 ![0] bcast_S1600000_S1600000x1_0 (W2 m ρ c (Proc.devRef .tc main_v3))) (W2 m ρ c (Proc.devRef .tc main_v12)) := by
    show StableHlo.after hostOps1 (W2 m ρ c) (Proc.devRef .tc main_v15) = _
    dsimp only [hostOps1]
    after_results <;> rfl
  rw [h, W2_messages, W2_of_ne m ρ c main_v3 (by decide), W1_tgt]

theorem V3_weights (c : Dev nD) : V3 m ρ c main_v16 = (transpose S128x128 [1, 0] (m ((c : Thread nD τ).loc main_arg4)) transposes_S128x128_S128x128_1_0) := by
  have h : V3 m ρ c main_v16 = transpose S128x128 [1, 0] (W2 m ρ c (Proc.devRef .tc main_arg4)) transposes_S128x128_S128x128_1_0 := by
    show StableHlo.after hostOps1 (W2 m ρ c) (Proc.devRef .tc main_v16) = _
    dsimp only [hostOps1]
    after_results <;> rfl
  rw [h, W2_of_ne m ρ c main_arg4 (by decide), W1_arg4]

theorem V3_bias (c : Dev nD) : V3 m ρ c main_arg5 = m ((c : Thread nD τ).loc main_arg5) := by
  have h : V3 m ρ c main_arg5 = W2 m ρ c (Proc.devRef .tc main_arg5) := by
    show StableHlo.after hostOps1 (W2 m ρ c) (Proc.devRef .tc main_arg5) = _
    dsimp only [hostOps1]
    after_results <;> rfl
  rw [h, W2_of_ne m ρ c main_arg5 (by decide), W1_arg5]

/-- The result buffer at the last boundary is `result`. -/
theorem final (c : Dev nD) : W4 m ρ c (Proc.devRef .tc main_v17) = result m c := by
  refine (show W4 m ρ c (Proc.devRef .tc main_v17) = (dat1 (V3 m ρ) c).arrAt 3 cfg1.N from W4_arr m ρ c 3).trans ?_
  rw [Cert.KernelIdeal.Upd.arr_eq (V3 m ρ) c, V3_sums, V3_weights, V3_bias]
  rfl

/-- THE RUN, READ: the result array ends at `result` of the arguments, the arguments unchanged. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m ρ c), (h c).2⟩) (run_mem m ρ)

end Value

end Cert.KernelIdeal.RunValue

end
-- ==== Proof.lean ====
/-
  A message-passing layer over a graph of 100,000 nodes and 1,600,000 edges: the Pallas kernel against its jnp reference,
  equal on the extended reals.

  Both programs compute, for the node features `x`, the edge list (source row, target row), the message weights and
  bias and the update weights and bias,

      out = L_upd( Σ_{edges e into node v} L_msg( x[src e] ) ),        L(a)[r, q] = (∑ k < 128, a[r, k] · Wᵀ[k, q]) + b[q].

  The reference writes each layer `L` as one contraction over the whole array plus the bias broadcast along the rows.
  The kernel writes each layer as a pallas_call that walks the rows in blocks (8,000 rows at a time over the edges,
  10,000 over the nodes), multiplying each block of rows by the whole transposed weight matrix — after rounding both
  factors to bf16, which is the identity at the ideal values — into a zero accumulator, and adding the bias. Gathering
  the source rows, wrapping negative indices, transposing the weights and the scatter-add by target node are the same
  host operations in both programs.

  At the ideal values a block's product accumulated into zero is the plain sum over `k` (`0 + s = s` also at the
  infinities), so each call's result array is the layer `L` of the arrays it was entered with (Proof/Msg.lean,
  Proof/Upd.lean: what one block stores, and that the blocks tile the rows). The reference's contraction is the same sum
  (Proof/Lin.lean). No law that needs finite values is used — no distributivity, no cancelling — so the precondition
  is never opened. The kernel's run with its result array named is Proof/KernelRun.lean; the reference's run and its
  stages read at an index are the generated modules Gen/ReferenceIdeal/Run.lean and Read.lean.

  The ideal pass rewrote nothing, so `preserves` is `True`; the three frames are the generated ones.
-/
import proofs.«106380_j12120397710063_1_alg».proof.Defs
import proofs.«106380_j12120397710063_1_alg».proof.Proof.Gen.Kernel
import proofs.«106380_j12120397710063_1_alg».proof.Proof.Gen.Kernel.Skeleton
import proofs.«106380_j12120397710063_1_alg».proof.Proof.Gen.Kernel.Launch
import proofs.«106380_j12120397710063_1_alg».proof.Proof.Gen.Kernel.Points
import proofs.«106380_j12120397710063_1_alg».proof.Proof.Gen.Kernel.Frame
import proofs.«106380_j12120397710063_1_alg».proof.Proof.Gen.KernelIdeal
import proofs.«106380_j12120397710063_1_alg».proof.Proof.Gen.KernelIdeal.Skeleton
import proofs.«106380_j12120397710063_1_alg».proof.Proof.Gen.KernelIdeal.Launch
import proofs.«106380_j12120397710063_1_alg».proof.Proof.Gen.KernelIdeal.Points
import proofs.«106380_j12120397710063_1_alg».proof.Proof.Gen.KernelIdeal.Frame
import proofs.«106380_j12120397710063_1_alg».proof.Proof.Gen.ReferenceIdeal
import proofs.«106380_j12120397710063_1_alg».proof.Proof.Gen.ReferenceIdeal.Run
import proofs.«106380_j12120397710063_1_alg».proof.Proof.Gen.ReferenceIdeal.Read
import proofs.«106380_j12120397710063_1_alg».proof.Proof.Gen.Pre_finite_inputs
import proofs.«106380_j12120397710063_1_alg».proof.Proof.Lin
import proofs.«106380_j12120397710063_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the update layer of the per-target sums of the
    message layer of the gathered rows: the kernel's two calls leave it block by block, the reference's two
    contractions state it whole. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _ _ _ _).trans ?_
  rw [Cert.ReferenceIdeal.Lin.ref_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
